-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x2048 : Shape := ⟨2, ![32768, 2048]⟩
abbrev S32768 : Shape := ⟨1, ![32768]⟩
abbrev S_ : Shape := ⟨0, ![]⟩

class Facts : Prop where
  bcast_S_S32768x2048 : S_.BroadcastsInDim S32768x2048 (![] : Fin 0 → Fin S32768x2048.rank)
  reducesTo_S32768x2048_S_d0_1 : S32768x2048.ReducesTo [0, 1] S_
  h_S_ : 0 < S_.numel

variable [Facts]

def fn {F : FTy → Type} [FloatOps F] (main_arg0 : FVec F S32768x2048 .f32) (main_arg1 : IVec S32768 32) : IVec S_ 1 :=
  let main_v0 : FVec F S32768x2048 .f32 := Host.absf main_arg0
  let main_cst : FVec F S_ .f32 := constant S_ .f32 0x7F800000#32
  let main_v1 : FVec F S32768x2048 .f32 := broadcastInDim S32768x2048 ![] bcast_S_S32768x2048 main_cst
  let main_v2 : IVec S32768x2048 1 := cmpf .olt main_v0 main_v1
  let main_c : IVec S_ 1 := constantI S_ 1 1#1
  let main_v3 : IVec S_ 1 := (fun x v => Host.reduce IntOp.andi x v reducesTo_S32768x2048_S_d0_1 h_S_) main_v2 main_c
  main_v3
-- ==== Kernel.lean ====
abbrev S32768x2048 : Shape := ⟨2, ![32768, 2048]⟩
abbrev S32768 : Shape := ⟨1, ![32768]⟩
abbrev S32768x1 : Shape := ⟨2, ![32768, 1]⟩
abbrev S16x128 : Shape := ⟨2, ![16, 128]⟩
abbrev S512x2048 : Shape := ⟨2, ![512, 2048]⟩
abbrev S512x1 : Shape := ⟨2, ![512, 1]⟩
abbrev S8x128 : Shape := ⟨2, ![8, 128]⟩
abbrev S1x1 : Shape := ⟨2, ![1, 1]⟩
abbrev S512 : Shape := ⟨1, ![512]⟩
abbrev S1 : Shape := ⟨1, ![1]⟩
abbrev S_ : Shape := ⟨0, ![]⟩

abbrev nBuf : Space → Nat
  | .hbm => 11
  | .vmem => 7
  | .smem => 0
  | _ => 0

abbrev bufTy : (tb : Table) → Fin (tcTables nBuf tb) → BufTy
  | .hbm, ⟨0, _⟩ => ⟨S32768x2048, .f32⟩
  | .hbm, ⟨1, _⟩ => ⟨S32768, .i32⟩
  | .hbm, ⟨2, _⟩ => ⟨S32768x1, .i32⟩
  | .hbm, ⟨3, _⟩ => ⟨S16x128, .f32⟩
  | .hbm, ⟨4, _⟩ => ⟨S1x1, .f32⟩
  | .hbm, ⟨5, _⟩ => ⟨S_, .f32⟩
  | .hbm, ⟨6, _⟩ => ⟨S1x1, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S512x2048, .f32⟩
  | .local _ .vmem, ⟨1, _⟩ => ⟨S512x2048, .f32⟩
  | .local _ .vmem, ⟨2, _⟩ => ⟨S512x1, .i32⟩
  | .local _ .vmem, ⟨3, _⟩ => ⟨S512x1, .i32⟩
  | .local _ .vmem, ⟨4, _⟩ => ⟨S8x128, .f32⟩
  | .local _ .vmem, ⟨5, _⟩ => ⟨S8x128, .f32⟩
  | .local _ .vmem, ⟨6, _⟩ => ⟨S1x1, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 32], ![false, false]⟩

def k0_cond2 (i : grid0.Coords) : BitVec 1 :=
  let arg1 : BitVec 32 := BitVec.ofNat 32 (i 1).val
  let c31_i32 : BitVec 32 := 31#32
  let v36 : BitVec 1 := Scalar.cmpi .eq arg1 c31_i32
  let v37 : BitVec 32 := Scalar.extui v36
  let c0_i32_14 : BitVec 32 := 0#32
  let v38 : BitVec 1 := Scalar.cmpi .ne v37 c0_i32_14
  v38

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S32768_S32768x1 : S32768.ShapeCasts S32768x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S512x2048_S512x2048_0_0 : ∀ a, (![0, 0] : Fin 2 → Nat) a + S512x2048.size a ≤ S512x2048.size a
  h_S512x2048 : 0 < S512x2048.numel
  iota_S512x2048_d1_w32 : S512x2048.Iotas .tc 32 [1]
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x2048 : S512x1.Broadcasts S512x2048
  reduces_S512x2048_S512 : S512x2048.Reduces [1] S512
  shapeCasts_S512_S512x1 : S512.ShapeCasts S512x1
  reduces_S512x1_S1 : S512x1.Reduces [0] S1
  shapeCasts_S1_S1x1 : S1.ShapeCasts S1x1
  broadcasts_S1x1_S8x128 : S1x1.Broadcasts S8x128
  inb_S8x128_S8x128_0_0 : ∀ a, (![0, 0] : Fin 2 → Nat) a + S8x128.size a ≤ S8x128.size a
  h_S8x128 : 0 < S8x128.numel
  slices_S16x128_S1x1_0_0 : S16x128.Slices ![0, 0] S1x1
  shapeCasts_S1x1_S_ : S1x1.ShapeCasts S_
  slices_S16x128_S1x1_8_0 : S16x128.Slices ![8, 0] S1x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S32768x2048.size a
  hwx0_0 : ∀ i : grid0.Coords, EltTy.bits .f32 = 32 ∨ (Rect.block (s := S32768x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S32768x1.size a
  hwx0_1 : ∀ i : grid0.Coords, EltTy.bits .i32 = 32 ∨ (Rect.block (s := S32768x1) S512x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S16x128.size a
  hwx0_2 : ∀ i : grid0.Coords, EltTy.bits .f32 = 32 ∨ (Rect.block (s := S16x128) S8x128.size (cc0_transform_2 i) (hinb0_2 i)).WholeWords (EltTy.packing .f32)

variable [Facts₀]

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S32768x2048 : Shape := ⟨2, ![32768, 2048]⟩
abbrev S32768 : Shape := ⟨1, ![32768]⟩
abbrev S_ : Shape := ⟨0, ![]⟩
abbrev S32768x1 : Shape := ⟨2, ![32768, 1]⟩
abbrev S1x2048 : Shape := ⟨2, ![1, 2048]⟩

abbrev nBuf : Space → Nat
  | .hbm => 38
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S32768, .i32⟩
  | .hbm, ⟨2, _⟩ => ⟨S32768x2048, .i1⟩
  | .hbm, ⟨3, _⟩ => ⟨S_, .f32⟩
  | .hbm, ⟨4, _⟩ => ⟨S32768x2048, .f32⟩
  | .hbm, ⟨5, _⟩ => ⟨S32768x2048, .f32⟩
  | .hbm, ⟨6, _⟩ => ⟨S32768x1, .i32⟩
  | .hbm, ⟨7, _⟩ => ⟨S1x2048, .i32⟩
  | .hbm, ⟨8, _⟩ => ⟨S32768x2048, .i32⟩
  | .hbm, ⟨9, _⟩ => ⟨S32768x2048, .i32⟩
  | .hbm, ⟨10, _⟩ => ⟨S32768x2048, .i1⟩
  | .hbm, ⟨11, _⟩ => ⟨S_, .f32⟩
  | .hbm, ⟨12, _⟩ => ⟨S32768x2048, .f32⟩
  | .hbm, ⟨13, _⟩ => ⟨S32768x2048, .f32⟩
  | .hbm, ⟨14, _⟩ => ⟨S_, .f32⟩
  | .hbm, ⟨15, _⟩ => ⟨S32768x2048, .f32⟩
  | .hbm, ⟨16, _⟩ => ⟨S32768x2048, .f32⟩
  | .hbm, ⟨17, _⟩ => ⟨S_, .f32⟩
  | .hbm, ⟨18, _⟩ => ⟨S32768x2048, .f32⟩
  | .hbm, ⟨19, _⟩ => ⟨S32768x2048, .f32⟩
  | .hbm, ⟨20, _⟩ => ⟨S32768x2048, .f32⟩
  | .hbm, ⟨21, _⟩ => ⟨S32768x2048, .f32⟩
  | .hbm, ⟨22, _⟩ => ⟨S_, .f32⟩
  | .hbm, ⟨23, _⟩ => ⟨S32768x2048, .f32⟩
  | .hbm, ⟨24, _⟩ => ⟨S32768x2048, .f32⟩
  | .hbm, ⟨25, _⟩ => ⟨S_, .f32⟩
  | .hbm, ⟨26, _⟩ => ⟨S32768x2048, .f32⟩
  | .hbm, ⟨27, _⟩ => ⟨S32768x2048, .f32⟩
  | .hbm, ⟨28, _⟩ => ⟨S_, .f32⟩
  | .hbm, ⟨29, _⟩ => ⟨S32768x2048, .f32⟩
  | .hbm, ⟨30, _⟩ => ⟨S32768x2048, .f32⟩
  | .hbm, ⟨31, _⟩ => ⟨S32768x2048, .f32⟩
  | .hbm, ⟨32, _⟩ => ⟨S32768x2048, .f32⟩
  | .hbm, ⟨33, _⟩ => ⟨S32768x2048, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_call0_v0 : Ref sig .tc := ⟨.hbm, 4, rfl⟩
abbrev main_v1 : Ref sig .tc := ⟨.hbm, 5, rfl⟩
abbrev main_call1_v0 : Ref sig .tc := ⟨.hbm, 6, rfl⟩
abbrev main_call1_v1 : Ref sig .tc := ⟨.hbm, 7, rfl⟩
abbrev main_call1_v2 : Ref sig .tc := ⟨.hbm, 8, rfl⟩
abbrev main_call1_v3 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_3 : Ref sig .tc := ⟨.hbm, 22, rfl⟩
abbrev main_v11 : Ref sig .tc := ⟨.hbm, 23, rfl⟩
abbrev main_v12 : Ref sig .tc := ⟨.hbm, 24, rfl⟩
abbrev main_cst_4 : Ref sig .tc := ⟨.hbm, 25, rfl⟩
abbrev main_v13 : Ref sig .tc := ⟨.hbm, 26, rfl⟩
abbrev main_v14 : Ref sig .tc := ⟨.hbm, 27, rfl⟩
abbrev main_cst_5 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_6 : Ref sig .tc := ⟨.hbm, 34, rfl⟩
abbrev main_v20 : Ref sig .tc := ⟨.hbm, 35, rfl⟩
abbrev main_cst_7 : Ref sig .tc := ⟨.hbm, 36, rfl⟩
abbrev main_v21 : Ref sig .tc := ⟨.hbm, 37, rfl⟩

abbrev nD : Nat := 1
abbrev τ : Topo := Topo.v7x

variable {F : FTy → Type} [FloatOps F]

class Facts₀ : Prop where
  bcast_S_S32768x2048 : S_.BroadcastsInDim S32768x2048 (![] : Fin 0 → Fin S32768x2048.rank)
  bcast_S32768_S32768x1_0 : S32768.BroadcastsInDim S32768x1 (![0] : Fin 1 → Fin S32768x1.rank)
  bcast_S32768x1_S32768x2048_0_1 : S32768x1.BroadcastsInDim S32768x2048 (![0, 1] : Fin 2 → Fin S32768x2048.rank)
  bcast_S1x2048_S32768x2048_0_1 : S1x2048.BroadcastsInDim S32768x2048 (![0, 1] : Fin 2 → Fin S32768x2048.rank)
  reducesTo_S32768x2048_S_d0_1 : S32768x2048.ReducesTo [0, 1] S_
  h_S_ : 0 < S_.numel

variable [Facts₀]

class Facts : Prop extends Facts₀ where

variable [Facts]
-- ==== Proof.FocalFinite.lean ====
/-
  Finite inputs are reals.

  The precondition says that every entry of the probability array is smaller in absolute value than `+∞`. Over the
  extended reals, `max x (-x) < +∞` rules out both infinities, so each entry is a real number.
-/
import proofs.«147133_j66949950210607_2_alg».proof.Pre_finite_inputs
import Idealize.ShloMosaic.PureOps.Ideal
import Idealize.ShloMosaic.Lib.ValueIdx
import Idealize.ShloMosaic.Lib.IdealHost
import Idealize.ShloMosaic.Lib.ReduceAll

noncomputable section

namespace Cert.Focal

open Idealize.ShloMosaic Idealize.ShloMosaic.ValueIdx

/-- The f32 word `0x7F800000` is `+∞`. -/
theorem ofBits_inf_f32 : Ideal.ofBits .f32 0x7F800000#32 = (⊤ : EReal) := by
  simp [Ideal.ofBits, Ideal.ieee]

/-- An extended real whose absolute value is below `+∞` is a real. -/
theorem real_of_abs_lt_top (x : EReal) (h : max x (-x) < ⊤) : ∃ r : ℝ, x = (r : EReal) := by
  induction x using EReal.rec with
  | bot => exact absurd h (by simp)
  | top => exact absurd h (by simp)
  | coe r => exact ⟨r, rfl⟩

/-- Under the precondition every entry of the probability array is a real. -/
theorem real_of_pre [Cert.Pre_finite_inputs.Facts] (X : FVec Ideal Cert.Pre_finite_inputs.S32768x2048 .f32)
    (K : IVec Cert.Pre_finite_inputs.S32768 32)
    (h : Cert.Pre_finite_inputs.fn (F := Ideal) X K = fun _ => 1#1) (i : Cert.Pre_finite_inputs.S32768x2048.Idx) :
    ∃ r : ℝ, X i = (r : EReal) := by
  have h0 := congrFun h ix0
  dsimp only [Cert.Pre_finite_inputs.fn] at h0
  haveI : Subsingleton Cert.Pre_finite_inputs.S_.Idx := ⟨fun a b => funext fun d => d.elim0⟩
  have hi := Host.reduce_andi_all _ _ _ _ _ h0 i
  rw [cmpf_apply, broadcastInDim_scalar_apply] at hi
  change Ideal.cmp .olt (max (X i) (-(X i))) (Ideal.ofBits .f32 0x7F800000#32) = 1#1 at hi
  rw [ofBits_inf_f32] at hi
  have hlt : max (X i) (-(X i)) < ⊤ := by
    by_contra hn
    simp [Ideal.cmp, hn] at hi
  exact real_of_abs_lt_top _ hlt

end Cert.Focal

end
-- ==== Proof.FocalSpec.lean ====
/-
  The focal loss of one entry, and how its total over a 32768 × 2048 array regroups.

  For a probability `p` and a flag `hit` (is this column the row's class?), the entry's loss is
  `-1/4 · (1 - p)² · log p` when `hit` and `-3/4 · p² · log (1 - p)` otherwise. One program writes the squares as
  products, `entry`, the other as powers with exponent two, `entryPow`; over the extended reals the two agree at every
  REAL `p` (`entryPow_coe`): a real to the power two is its product with itself. At `-∞` they differ (the power keeps
  `-∞`, the product is `+∞`), which is why the entries are asked to be finite.

  The total over all rows is then regrouped: the 32768 rows are 64 tiles of 512 rows (`sum_rows`), and a running total
  that restarts at every 32nd tile holds, after tile `n`, the sum over the tiles from the last restart up to `n`
  (`Ico_restart`, `Ico_step`); the two runs of 32 tiles together are all 64 (`two_runs`).
-/
import Idealize.ShloMosaic.PureOps.Ideal
import Idealize.ShloMosaic.PureOps.Ideal.Laws
import Idealize.ShloMosaic.Lib.ValueIdx
import Idealize.ShloMosaic.Lib.IdealHost

noncomputable section

open scoped BigOperators

namespace Cert.Focal

open Idealize.ShloMosaic Idealize.ShloMosaic.ValueIdx

/-! ## One entry -/

/-- One entry's loss with the squares written as products. -/
def entry (p : EReal) (hit : BitVec 1) : EReal :=
  Scalar.select hit
    (Ideal.ofBits .f32 0xBE800000#32 * ((Ideal.ofBits .f32 0x3F800000#32 - p) * (Ideal.ofBits .f32 0x3F800000#32 - p)) * Ideal.log p)
    (Ideal.ofBits .f32 0xBF400000#32 * (p * p) * Ideal.log (Ideal.ofBits .f32 0x3F800000#32 - p))

/-- One entry's loss with the squares written as powers with exponent two. -/
def entryPow (p : EReal) (hit : BitVec 1) : EReal :=
  Scalar.select hit
    (Ideal.ofBits .f32 0xBE800000#32 * Ideal.pow (Ideal.ofBits .f32 0x3F800000#32 - p) (Ideal.ofBits .f32 0x40000000#32) * Ideal.log p)
    (Ideal.ofBits .f32 0xBF400000#32 * Ideal.pow p (Ideal.ofBits .f32 0x40000000#32) * Ideal.log (Ideal.ofBits .f32 0x3F800000#32 - p))

/-- The f32 word `0x40000000` is the real two. -/
theorem ofBits_two_f32 : Ideal.ofBits .f32 0x40000000#32 = ((2 : ℝ) : EReal) := by
  simp [Ideal.ofBits, Ideal.ieee, -EReal.coe_mul]; norm_num

/-- A real to the power two is its product with itself. -/
theorem pow_two_coe (r : ℝ) : Ideal.pow (r : EReal) (Ideal.ofBits .f32 0x40000000#32) = (r : EReal) * (r : EReal) := by
  rw [ofBits_two_f32, Ideal.pow_coe_coe, ← EReal.coe_mul]
  refine congrArg _ ?_
  show r ^ (2 : ℝ) = r * r
  rw [Real.rpow_two, sq]

/-- One minus a real is a real. -/
theorem one_sub_coe (r : ℝ) : Ideal.ofBits .f32 0x3F800000#32 - (r : EReal) = ((1 - r : ℝ) : EReal) := by
  rw [Ideal.ofBits_one_f32, ← EReal.coe_one, ← EReal.coe_sub]

/-- At a real probability the two spellings of the entry's loss agree. -/
theorem entryPow_coe (r : ℝ) (hit : BitVec 1) : entryPow (r : EReal) hit = entry (r : EReal) hit := by
  unfold entryPow entry
  rw [one_sub_coe, pow_two_coe, pow_two_coe]

/-- Nothing differs from itself: the "not equal" comparison of an extended real with itself is 0. -/
theorem cmp_one_self (x : EReal) : Ideal.cmp .one x x = 0#1 := by
  simp [Ideal.cmp]

theorem cmp_une_self (x : EReal) : Ideal.cmp .une x x = 0#1 := by
  simp [Ideal.cmp]

/-- The two orders of an equality test on words give one bit. -/
theorem cmpi_eq_comm {w : ℕ} (a b : BitVec w) : IntOp.cmpi .eq a b = IntOp.cmpi .eq b a := by
  unfold IntOp.cmpi
  refine congrArg _ ?_
  show (a == b) = (b == a)
  exact Bool.beq_comm

/-! ## Rows in tiles -/

/-- Row `r` of tile `k`, among all rows. -/
def row (k : Fin 64) (r : Fin 512) : Fin 32768 := ⟨512 * k.val + r.val, by have := k.isLt; have := r.isLt; omega⟩

/-- A sum over the 32768 rows is the sum over the 64 tiles of the sum over each tile's 512 rows. -/
theorem sum_rows {M : Type*} [AddCommMonoid M] (f : Fin 32768 → M) :
    ∑ a, f a = ∑ k : Fin 64, ∑ r : Fin 512, f (row k r) := by
  rw [← Equiv.sum_comp (finProdFinEquiv (m := 64) (n := 512)) f, Fintype.sum_prod_type]
  refine Finset.sum_congr rfl fun k _ => Finset.sum_congr rfl fun r _ => congrArg f (Fin.ext ?_)
  show r.val + 512 * k.val = 512 * k.val + r.val
  omega

/-! ## A running total that restarts at every 32nd tile -/

/-- At a restart the run is the tile alone. -/
theorem Ico_restart (n : ℕ) (h : n % 32 = 0) : Finset.Ico (n - n % 32) (n + 1) = {n} := by
  rw [h, Nat.sub_zero]
  exact Nat.Ico_succ_singleton n

/-- Elsewhere the run is the run of the tile before, with this tile added. -/
theorem sum_Ico_step {M : Type*} [AddCommMonoid M] (T : ℕ → M) (n : ℕ) (h : ¬(n + 1) % 32 = 0) :
    ∑ k ∈ Finset.Ico (n + 1 - (n + 1) % 32) (n + 1 + 1), T k = ∑ k ∈ Finset.Ico (n - n % 32) (n + 1), T k + T (n + 1) := by
  have e : n + 1 - (n + 1) % 32 = n - n % 32 := by omega
  rw [e, Finset.sum_Ico_succ_top (by omega)]

/-- The two runs of 32 tiles are all 64 tiles. -/
theorem two_runs {M : Type*} [AddCommMonoid M] (T : ℕ → M) :
    ∑ k ∈ Finset.Ico (31 - 31 % 32) (31 + 1), T k + ∑ k ∈ Finset.Ico (63 - 63 % 32) (63 + 1), T k = ∑ k : Fin 64, T k.val := by
  rw [show 31 - 31 % 32 = 0 from rfl, show 63 - 63 % 32 = 32 from rfl, show 31 + 1 = 32 from rfl, show 63 + 1 = 64 from rfl,
    Finset.sum_Ico_consecutive T (by omega) (by omega), ← Finset.range_eq_Ico, Finset.sum_range]

/-! ## The total and the mean -/

/-- Is column `b` the class `cls`? -/
def hit (cls : BitVec 32) (b : Fin 2048) : BitVec 1 := IntOp.cmpi .eq cls (BitVec.ofNat 32 b.val)

/-- The total loss of the probabilities `X` against the classes `K`: every entry's loss, summed. -/
def total (X : (⟨2, ![32768, 2048]⟩ : Shape).Idx → EReal) (K : (⟨1, ![32768]⟩ : Shape).Idx → BitVec 32) : EReal :=
  ∑ a : Fin 32768, ∑ b : Fin 2048, entry (X (ix2 a b)) (hit (K (ix1 a)) b)

/-- The mean loss per row: the total divided by the number of rows, the f32 word of 32768. -/
def mean (X : (⟨2, ![32768, 2048]⟩ : Shape).Idx → EReal) (K : (⟨1, ![32768]⟩ : Shape).Idx → BitVec 32) : EReal :=
  Ideal.div (total X K) (Ideal.ofBits .f32 0x47000000#32)

/-- The loss of tile `k`: its 512 rows' entries, summed. -/
def tile (X : (⟨2, ![32768, 2048]⟩ : Shape).Idx → EReal) (K : (⟨1, ![32768]⟩ : Shape).Idx → BitVec 32) (k : Fin 64) : EReal :=
  ∑ r : Fin 512, ∑ b : Fin 2048, entry (X (ix2 (row k r) b)) (hit (K (ix1 (row k r))) b)

/-- The total is the sum of the 64 tiles' losses. -/
theorem total_eq_tiles (X : (⟨2, ![32768, 2048]⟩ : Shape).Idx → EReal) (K : (⟨1, ![32768]⟩ : Shape).Idx → BitVec 32) :
    total X K = ∑ k : Fin 64, tile X K k :=
  sum_rows _

end Cert.Focal

end
-- ==== Proof.FocalReference.lean ====
/-
  The reference computes the mean loss.

  Read one operation at a time, the reference patches entries that differ from themselves (none does, over the extended
  reals), builds the class flags by comparing each row's class with the column number, forms each entry's loss with the
  squares as powers, sums every entry from zero and divides by 32768. At real probabilities the powers are products
  (`Focal.entryPow_coe`), so its result is `Focal.mean`.
-/
import proofs.«147133_j66949950210607_2_alg».proof.Proof.Gen.ReferenceIdeal.Read
import proofs.«147133_j66949950210607_2_alg».proof.Proof.FocalSpec

noncomputable section

open scoped BigOperators

namespace Cert.ReferenceIdeal.Mean

open Cert.ReferenceIdeal Idealize.ShloMosaic Idealize.ShloMosaic.ValueIdx Cert.Focal

/-- The patched probabilities are the probabilities: no extended real differs from itself. -/
theorem patched_apply (X : FVec Ideal S32768x2048 .f32) (i : S32768x2048.Idx) : Read.val_main_v1 (F := Ideal) X i = X i := by
  rw [Read.val_main_v1_apply, Read.val_main_v0_apply]
  show Scalar.select (Ideal.cmp .une (X i) (X i)) _ _ = _
  rw [cmp_une_self, select_zero]

/-- The row of an entry, as the class broadcast reads it. -/
theorem class_idx (a : Fin 32768) (b : Fin 2048) : Read.idx_main_call1_v0 (Read.idx_main_call1_v2 (ix2 a b)) = ix1 a :=
  funext fun d => by match d with | ⟨0, _⟩ => rfl

/-- The reference's loss array at an entry: the entry's loss, squares as powers. -/
theorem loss_apply (X : FVec Ideal S32768x2048 .f32) (K : IVec S32768 32) (a : Fin 32768) (b : Fin 2048) :
    Read.val_main_v19 (F := Ideal) X K (ix2 a b) = entryPow (X (ix2 a b)) (hit (K (ix1 a)) b) := by
  rw [Read.val_main_v19_apply, Read.val_main_v2_apply, Read.val_main_call1_v2_apply, Read.val_main_call1_v0_apply,
    Read.val_main_call1_v3_apply, Read.val_main_call1_v1_apply,
    Read.val_main_v10_apply, Read.val_main_v8_apply, Read.val_main_v7_apply, Read.val_main_cst_2_apply,
    Read.val_main_v6_apply, Read.val_main_v4_apply, Read.val_main_v3_apply, Read.val_main_cst_0_apply,
    Read.val_main_v5_apply, Read.val_main_cst_1_apply, Read.val_main_v9_apply,
    Read.val_main_v18_apply, Read.val_main_v14_apply, Read.val_main_v13_apply, Read.val_main_cst_4_apply,
    Read.val_main_v12_apply, Read.val_main_v11_apply, Read.val_main_cst_3_apply, Read.val_main_v17_apply,
    Read.val_main_v16_apply, Read.val_main_v15_apply, Read.val_main_cst_5_apply, patched_apply, class_idx]
  rfl

/-- The reference's result, at real probabilities, is the mean loss. -/
theorem result_eq (X : FVec Ideal S32768x2048 .f32) (K : IVec S32768 32) (hX : ∀ i, ∃ r : ℝ, X i = (r : EReal)) :
    Read.val_main_v21 (F := Ideal) X K = fun _ => mean X K := by
  funext i
  rw [Read.val_main_v21_apply, Read.val_main_v20_apply, Read.val_main_cst_6_apply, Read.val_main_cst_7_apply]
  show Ideal.div (Ideal.ofBits .f32 0x00000000#32 + ∑ j, Read.val_main_v19 (F := Ideal) X K j) (Ideal.ofBits .f32 0x47000000#32) = _
  rw [Ideal.ofBits_zero_f32, zero_add, sum_idx2]
  have hsum : ∑ a : Fin 32768, ∑ b : Fin 2048, Read.val_main_v19 (F := Ideal) X K (ix2 a b) = total X K := by
    unfold total
    refine Finset.sum_congr rfl fun a _ => Finset.sum_congr rfl fun b _ => ?_
    obtain ⟨r, hr⟩ := hX (ix2 a b)
    rw [loss_apply, hr, entryPow_coe]
  rw [hsum]
  rfl

end Cert.ReferenceIdeal.Mean

end
-- ==== Proof.LibColumns.lean ====
/-
  Column forms of three layout operations, read at an index of literal coordinates.

  A sum over the lanes of an `a × b` array keeps one entry per row; kernels then give that column vector a unit second
  axis (`[a] → [a, 1]`) and spread it back over the lanes (`[a, 1] → [a, b]`). Read at an index:

  * `shapeCast_a_a1_apply`: the cast of `x : [a]` to `[a, 1]` at `(r, u)` is `x r`, whatever the unit coordinate `u`;
  * `broadcastTo_a1_ab_apply`: the broadcast of `v : [a, 1]` to `[a, b]` at `(r, c)` is `v (r, 0)`;
  * `shapeCast_a1_1a_apply`: the cast of a column `x : [a, 1]` to a row `[1, a]` at `(u, c)` is `x (c, 0)`;
  * `lift_rows`: over a row index `r`, the source index with lane `k` put back is `(r, k)`;
  * `multiReduction_add_rows`: at the extended reals the lane sum of `x : [a, b]` at row `r` is `∑ k, x (r, k)`.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.Proof.Columns

open Idealize.ShloMosaic Idealize.ShloMosaic.ValueIdx

variable {α : Type}

/-- An `[a]` array cast to `[a, 1]` reads, at `(r, u)`, the operand at `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` cast to a row `[1, a]` reads, at `(u, c)`, the operand at `(c, 0)`. -/
theorem shapeCast_a1_1a_apply {a : ℕ} (x : (⟨2, ![a, 1]⟩ : Shape).Idx → α) (h : (⟨2, ![a, 1]⟩ : Shape).ShapeCasts ⟨2, ![1, a]⟩)
    (u : Fin 1) (c : Fin a) : shapeCast ⟨2, ![1, a]⟩ x h (ix2 u c) = x (ix2 c (0 : Fin 1)) :=
  shapeCast_apply x h _ _ (by
    have hu : u.val = 0 := by omega
    rw [Shape.rowMajor_val_two, Shape.rowMajor_val_two]
    show c.val * 1 + 0 = u.val * a + c.val
    rw [hu, Nat.zero_mul, Nat.zero_add, Nat.mul_one, Nat.add_zero])

/-- An `[a, 1]` array broadcast to `[a, b]` reads, at `(r, c)`, the operand's entry of row `r`. -/
theorem broadcastTo_a1_ab_apply {a b : ℕ} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- Over the row index `r`, the source index whose lane coordinate is `k` is `(r, k)`. -/
theorem lift_rows {a b : ℕ} (h : (⟨2, ![a, b]⟩ : Shape).Reduces [(1 : Fin 2)] ⟨1, ![a]⟩) (r : Fin a) (k : Fin b) :
    h.lift (ix1 r) k = ix2 r k := by
  funext c
  refine Fin.ext ?_
  match c with
  | ⟨0, _⟩ => rfl
  | ⟨1, _⟩ => rfl

/-- A float sum over the lanes of an `a × b` array, at the extended reals and at row `r`, is `∑ k, x (r, k)`. The
    accumulator fact is taken in the form a printed program carries it. -/
theorem multiReduction_add_rows {a b : ℕ} {φ : FTy} (x : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.add.neutral φ hφ) (r : Fin a) :
    multiReduction .add [(1 : Fin 2)] ⟨1, ![a]⟩ x acc h hφ hacc (ix1 r) = ∑ k : Fin b, x (ix2 r k) := by
  refine (Ideal.multiReduction_add_single x acc h hφ hacc (ix1 r)).trans ?_
  exact Finset.sum_congr rfl fun k _ => congrArg x (lift_rows h r k)

end Cert.Proof.Columns

end
-- ==== Proof.LibColumnSum.lean ====
/-
  A sum down a one-lane column, read at an index of literal coordinates.

  A kernel that totals an `a × b` array one axis at a time first sums the lanes of each row, keeps the row sums as an
  `a × 1` column, and then sums the column's `a` entries into a single entry. Read at the extended reals:

  * `lift_cols`: over the one kept index, the source index whose row coordinate is `k` is `(k, 0)`;
  * `multiReduction_add_cols`: the sum down the column `x : [a, 1]` is `∑ k, x (k, 0)`.
-/
import Idealize.ShloMosaic.PureOps.Ideal
import Idealize.ShloMosaic.PureOps.Ideal.Laws
import Idealize.ShloMosaic.Lib.ValueIdx

noncomputable section

open scoped BigOperators

namespace Cert.Proof.ColumnSum

open Idealize.ShloMosaic Idealize.ShloMosaic.ValueIdx

/-- Over the one kept index, the source index whose row coordinate is `k` is `(k, 0)`. -/
theorem lift_cols {a : ℕ} (h : (⟨2, ![a, 1]⟩ : Shape).Reduces [(0 : Fin 2)] ⟨1, ![1]⟩) (u : Fin 1) (k : Fin a) :
    h.lift (ix1 u) k = ix2 k (0 : Fin 1) := by
  funext c
  refine Fin.ext ?_
  match c with
  | ⟨0, _⟩ => rfl
  | ⟨1, _⟩ =>
    show u.val = 0
    omega

/-- A float sum down an `a × 1` column, at the extended reals, is `∑ k, x (k, 0)`. The accumulator fact is taken in the
    form a printed program carries it. -/
theorem multiReduction_add_cols {a : ℕ} {φ : FTy} (x : FVec Ideal ⟨2, ![a, 1]⟩ φ) (acc : BitVec φ.bits)
    (h : (⟨2, ![a, 1]⟩ : Shape).Reduces [(0 : Fin 2)] ⟨1, ![1]⟩) (hφ : FKind.Formats φ)
    (hacc : acc = FKind.add.neutral φ hφ) (u : Fin 1) :
    multiReduction .add [(0 : Fin 2)] ⟨1, ![1]⟩ x acc h hφ hacc (ix1 u) = ∑ k : Fin a, x (ix2 k (0 : Fin 1)) := by
  refine (Ideal.multiReduction_add_single x acc h hφ hacc (ix1 u)).trans ?_
  exact Finset.sum_congr rfl fun k _ => congrArg x (lift_cols h u k)

end Cert.Proof.ColumnSum

end
-- ==== Proof.FocalTile.lean ====
/-
  The body's arithmetic, read at the extended reals.

  From a tile's probabilities `x0` (512 × 2048) and classes `x1` (512 × 1) the body forms every entry's loss, sums the
  lanes of each row, sums the 512 row sums, and adds the result to the running total it read from its one-entry cell.
  So the new cell contents are the old ones plus the tile's total `blockTotal x0 x1` (`cell_apply`). The reset value
  is zero (`reset_apply`), and the output block repeats the cell's entry everywhere (`spread_apply`).
-/
import proofs.«147133_j66949950210607_2_alg».proof.Proof.Gen.KernelIdeal.Skeleton
import proofs.«147133_j66949950210607_2_alg».proof.Proof.FocalSpec
import proofs.«147133_j66949950210607_2_alg».proof.Proof.LibColumns
import proofs.«147133_j66949950210607_2_alg».proof.Proof.LibColumnSum
import Idealize.ShloMosaic.Lib.Pipeline.Value

noncomputable section

open scoped BigOperators

namespace Cert.KernelIdeal.Tile

open Cert.KernelIdeal Cert.KernelIdeal.Gen Idealize.ShloMosaic Idealize.ShloMosaic.ValueIdx
open Cert.Focal Cert.Proof.Columns Cert.Proof.ColumnSum

/-- The total loss of one tile, from the tile's own blocks: rows `r`, columns `b`, the class of row `r` at `(r, 0)`. -/
def blockTotal (x0 : Vec Ideal S512x2048 .f32) (x1 : Vec Ideal S512x1 .i32) : EReal :=
  ∑ r : Fin 512, ∑ b : Fin 2048, entry (x0 (ix2 r b)) (hit (x1 (ix2 r (0 : Fin 1))) b)

/-- A probability patched where it differs from itself: nothing does. -/
def patch (p : EReal) : EReal := Scalar.select (Ideal.cmp .one p p) (Ideal.ofBits .f32 0x358637BD#32) p

theorem patch_eq (p : EReal) : patch p = p := by
  unfold patch
  rw [cmp_one_self, select_zero]

/-- The new contents of the cell: the old contents plus the tile's total. -/
theorem cell_apply (x0 : Vec Ideal S512x2048 .f32) (x1 : Vec Ideal S512x1 .i32) (acc : Vec Ideal S1x1 .f32) (u v : Fin 1) :
    k0_pay3 (F := Ideal) x0 x1 acc (ix2 u v) = acc (ix2 u v) + blockTotal x0 x1 := by
  unfold k0_pay3
  dsimp only
  rw [shapeCast_self]
  refine congrArg (acc (ix2 u v) + ·) ?_
  refine (shapeCast_a_a1_apply _ _ u v).trans ?_
  refine (multiReduction_add_cols _ _ _ _ _ u).trans ?_
  refine Finset.sum_congr rfl fun r _ => ?_
  refine (shapeCast_a_a1_apply _ _ r (0 : Fin 1)).trans ?_
  refine (multiReduction_add_rows _ _ _ _ _ r).trans ?_
  refine Finset.sum_congr rfl fun b _ => ?_
  show entry (patch (x0 (ix2 r b)))
      (IntOp.cmpi .eq (iota .tc S512x2048 32 [1] iota_S512x2048_d1_w32 (ix2 r b))
        (broadcastTo S512x2048 (shapeCast S512x1 x1 shapeCasts_S512x1_S512x1) broadcasts_S512x1_S512x2048 (ix2 r b))) = _
  rw [patch_eq, iota_single_apply, broadcastTo_a1_ab_apply, shapeCast_self, cmpi_eq_comm]
  rfl

/-- The value a run's first tile resets the cell to is zero. -/
theorem reset_apply (j : S1x1.Idx) : k0_pay2 (F := Ideal) j = 0 := by
  unfold k0_pay2
  rw [shapeCast_self]
  exact Ideal.ofBits_zero_f32

/-- The output block repeats the cell's one entry. -/
theorem spread_apply (v : Vec Ideal S1x1 .f32) (a : Fin 8) (b : Fin 128) :
    k0_pay1 (F := Ideal) v (ix2 a b) = v (ix2 (0 : Fin 1) (0 : Fin 1)) := by
  unfold k0_pay1
  rw [shapeCast_self]
  refine broadcastTo_apply v _ (ix2 a b) (ix2 (0 : Fin 1) (0 : Fin 1)) fun ax => ?_
  match ax with
  | ⟨0, _⟩ => rfl
  | ⟨1, _⟩ => rfl

end Cert.KernelIdeal.Tile

end
-- ==== Proof.FocalPieces.lean ====
/-
  What each control case of the kernel body leaves behind, as a function of what it read.

  The body keeps a one-entry running total in a scratch cell. At the first tile of a run it stores zero there and then
  adds the tile's total; at every later tile it adds the tile's total to what the tile before left; at the last tile of a
  run it also copies the cell to every entry of the output block.
-/
import proofs.«147133_j66949950210607_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- A later tile (not the last of its run): the cell ends at the payload of the tile's blocks over what the tile before left. -/
theorem cell_B (c : Dev nD) (i : grid0.Coords) (a2 : Memref sig .tc .vmem S512x2048 .f32) (h2 : a2.IsWhole)
    (a3 : Memref sig .tc .vmem S512x1 .i32) (h3 : a3.IsWhole) (a4 : Memref sig .tc .vmem S8x128 .f32) (h4 : a4.IsWhole)
    (a5 : Memref sig .tc .vmem S1x1 .f32) (h5 : a5.IsWhole) (hc0 : ¬cond0_0 i) (hc1 : ¬cond0_1 i)
    (x0 : Vec F S512x2048 .f32) (x1 : Vec F S512x1 .i32) (xs0 : Vec F S1x1 .f32) :
    sout0_B_0 c i a2 h2 a3 h3 a4 h4 a5 h5 hc0 hc1 x0 x1 xs0 = k0_pay3 x0 x1 xs0 := by
  unfold sout0_B_0
  rw [View.read_writes_eq_canon _ _ _ (scover0_B_0 c i a2 h2 a3 h3 a4 h4 a5 h5 hc0 hc1 x0 x1 xs0)]
  unfold kernelRun0_B
  dsimp only
  rw [View.canon_unit_zero hz]
  simp only [View.readAt_eq_ld, h2.read_unread, h3.read_unread, h5.read_unread, View.ld_unit_zero (S := S512x2048) hz,
    View.ld_unit_zero (S := S512x1) hz, View.ld_unit_zero (S := S1x1) hz]

/-- The last tile of a run: the cell ends as at any later tile, -/
theorem cell_C (c : Dev nD) (i : grid0.Coords) (a2 : Memref sig .tc .vmem S512x2048 .f32) (h2 : a2.IsWhole)
    (a3 : Memref sig .tc .vmem S512x1 .i32) (h3 : a3.IsWhole) (a4 : Memref sig .tc .vmem S8x128 .f32) (h4 : a4.IsWhole)
    (a5 : Memref sig .tc .vmem S1x1 .f32) (h5 : a5.IsWhole) (hc0 : ¬cond0_0 i) (hc1 : cond0_1 i)
    (x0 : Vec F S512x2048 .f32) (x1 : Vec F S512x1 .i32) (xs0 : Vec F S1x1 .f32) :
    sout0_C_0 c i a2 h2 a3 h3 a4 h4 a5 h5 hc0 hc1 x0 x1 xs0 = k0_pay3 x0 x1 xs0 := by
  unfold sout0_C_0
  rw [View.read_writes_eq_canon _ _ _ (scover0_C_0 c i a2 h2 a3 h3 a4 h4 a5 h5 hc0 hc1 x0 x1 xs0)]
  unfold kernelRun0_C
  dsimp only
  sl_unfold_words
  rw [View.canon_unit_zero hz]
  simp only [View.readAt_eq_ld, h2.read_unread, h3.read_unread, h5.read_unread, View.ld_unit_zero (S := S512x2048) hz,
    View.ld_unit_zero (S := S512x1) hz, View.ld_unit_zero (S := S1x1) hz]

/-- and the output block is the cell's new contents spread over the block. -/
theorem block_C (c : Dev nD) (i : grid0.Coords) (a2 : Memref sig .tc .vmem S512x2048 .f32) (h2 : a2.IsWhole)
    (a3 : Memref sig .tc .vmem S512x1 .i32) (h3 : a3.IsWhole) (a4 : Memref sig .tc .vmem S8x128 .f32) (h4 : a4.IsWhole)
    (a5 : Memref sig .tc .vmem S1x1 .f32) (h5 : a5.IsWhole) (hc0 : ¬cond0_0 i) (hc1 : cond0_1 i)
    (x0 : Vec F S512x2048 .f32) (x1 : Vec F S512x1 .i32) (xs0 : Vec F S1x1 .f32) :
    out0_C_2 c i a2 h2 a3 h3 a4 h4 a5 h5 hc0 hc1 x0 x1 xs0 = k0_pay1 (k0_pay3 x0 x1 xs0) := by
  unfold out0_C_2
  rw [View.read_writes_eq_canon _ _ _ (cover0_C_2 c i a2 h2 a3 h3 a4 h4 a5 h5 hc0 hc1 x0 x1 xs0)]
  unfold kernelRun0_C
  dsimp only
  sl_unfold_words
  rw [View.canon_unit_zero hz, View.readCov_unit_zero (S := S1x1) _ hz]
  simp only [View.readAt_eq_ld, h2.read_unread, h3.read_unread, h5.read_unread, View.ld_unit_zero (S := S512x2048) hz,
    View.ld_unit_zero (S := S512x1) hz, View.ld_unit_zero (S := S1x1) hz]

/-- The first tile of a run: the cell is set to zero and the tile's total added to that. -/
theorem cell_A (c : Dev nD) (i : grid0.Coords) (a2 : Memref sig .tc .vmem S512x2048 .f32) (h2 : a2.IsWhole)
    (a3 : Memref sig .tc .vmem S512x1 .i32) (h3 : a3.IsWhole) (a4 : Memref sig .tc .vmem S8x128 .f32) (h4 : a4.IsWhole)
    (a5 : Memref sig .tc .vmem S1x1 .f32) (h5 : a5.IsWhole) (hc0 : cond0_0 i) (hc1 : ¬cond0_1 i)
    (x0 : Vec F S512x2048 .f32) (x1 : Vec F S512x1 .i32) :
    sout0_A_0 c i a2 h2 a3 h3 a4 h4 a5 h5 hc0 hc1 x0 x1 = k0_pay3 x0 x1 (k0_pay2 (F := F)) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S1x1) hz, View.readCov_unit_zero (S := S1x1) _ hz]
  simp only [View.readAt_eq_ld, h2.read_unread, h3.read_unread, View.ld_unit_zero (S := S512x2048) hz,
    View.ld_unit_zero (S := S512x1) hz]

end Cert.KernelIdeal.Pieces

end
-- ==== Proof.FocalBlocks.lean ====
/-
  The blocks the body reads at a tile are the tile's rows of the argument arrays.

  Grid point `t` (of 64, in order) is tile `t`: its probability block is rows `512·t … 512·t + 511` of the
  probability array, all 2048 columns, and its class block the same rows of the class vector, which the program has
  reshaped to one column before the region. So the tile's total formed from the blocks is `Focal.tile` of the argument
  arrays at `t` (`blockTotal_eq_tile`).
-/
import proofs.«147133_j66949950210607_2_alg».proof.Proof.Gen.KernelIdeal.Frame
import proofs.«147133_j66949950210607_2_alg».proof.Proof.FocalSpec
import proofs.«147133_j66949950210607_2_alg».proof.Proof.FocalTile
import proofs.«147133_j66949950210607_2_alg».proof.Proof.LibColumns
import Idealize.ShloMosaic.Lib.Pipeline.Value
import Idealize.ShloMosaic.Lib.StableHlo.Run
import Idealize.ShloMosaic.Lib.Tactic

noncomputable section

open scoped BigOperators
open Idealize.ShloMosaic Idealize.ShloMosaic.TcCoe Idealize.SL.Sem
open Idealize.ShloMosaic.Pipeline (Dat)

namespace Cert.KernelIdeal.Blocks

open Cert.KernelIdeal Cert.KernelIdeal.Gen Idealize.ShloMosaic.ValueIdx Cert.Focal Cert.Proof.Columns

variable {F : FTy → Type} [FloatOps F]
variable (m : (ℓ : Loc nD τ sig) → Buf (Elt F) ℓ)

/-- A grid point as a tile number. -/
def tileOf (t : Fin cfg0.N) : Fin 64 := ⟨t.val, lt_of_lt_of_eq t.isLt N_0⟩

/-- The probability window's block index at point `t` is `(t, 0)`; -/
theorem index_probs : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- so is the class window's. -/
theorem index_classes : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

/-- The class column the region finds is the class vector, reshaped. -/
theorem classes_column (c : Dev nD) :
    (V m c main_v0 : S32768x1.Idx → BitVec 32)
      = shapeCast S32768x1 (m ((c : Thread nD τ).loc main_arg1)) shapeCasts_S32768_S32768x1 := by
  show StableHlo.after hostOps0 (fun b => m (c, b)) (Proc.devRef .tc main_v0) = _
  after_results
  rfl

/-- The probability block of tile `t` at `(r, b)` is the probability array at row `512·t + r`, column `b`. -/
theorem probs_apply (c : Dev nD) (t : Fin cfg0.N) (r : Fin 512) (b : Fin 2048) :
    (iblk m c 0 t : Vec F S512x2048 .f32) (ix2 r b)
      = m ((c : Thread nD τ).loc main_arg0) (ix2 (row (tileOf t) r) b) := by
  have hi := index_probs t
  unfold iblk
  rw [View.read_apply]
  show V m c main_arg0 _ = _
  rw [V_main_arg0]
  refine congrArg _ (funext fun a => Fin.ext ?_)
  match a with
  | ⟨0, _⟩ =>
    show win0_0.index t 0 * 512 + 1 * r.val = 512 * t.val + r.val
    rw [hi.1]; omega
  | ⟨1, _⟩ =>
    show win0_0.index t 1 * 2048 + 1 * b.val = b.val
    rw [hi.2]; omega

/-- The class block of tile `t` at `(r, 0)` is the class of row `512·t + r`. -/
theorem classes_apply (c : Dev nD) (t : Fin cfg0.N) (r : Fin 512) :
    (iblk m c 1 t : Vec F S512x1 .i32) (ix2 r (0 : Fin 1))
      = m ((c : Thread nD τ).loc main_arg1) (ix1 (row (tileOf t) r)) := by
  have hi := index_classes t
  unfold iblk
  rw [View.read_apply]
  show (V m c main_v0 : S32768x1.Idx → BitVec 32) _ = _
  rw [classes_column]
  refine Eq.trans ?_ (shapeCast_a_a1_apply _ shapeCasts_S32768_S32768x1 (row (tileOf t) r) (0 : Fin 1))
  refine congrArg _ (funext fun a => Fin.ext ?_)
  match a with
  | ⟨0, _⟩ =>
    show win0_1.index t 0 * 512 + 1 * r.val = 512 * t.val + r.val
    rw [hi.1]; omega
  | ⟨1, _⟩ =>
    show win0_1.index t 1 * 1 + 1 * 0 = 0
    rw [hi.2]

end Cert.KernelIdeal.Blocks

namespace Cert.KernelIdeal.Blocks

open Cert.KernelIdeal Cert.KernelIdeal.Gen Idealize.ShloMosaic.ValueIdx Cert.Focal

variable (m : (ℓ : Loc nD τ sig) → Buf (Elt Ideal) ℓ)

/-- The total formed from tile `t`'s blocks is the tile's loss, of the argument arrays. -/
theorem blockTotal_eq_tile (c : Dev nD) (t : Fin cfg0.N) :
    Tile.blockTotal (iblk m c 0 t) (iblk m c 1 t)
      = tile (m ((c : Thread nD τ).loc main_arg0)) (m ((c : Thread nD τ).loc main_arg1)) (tileOf t) := by
  unfold Tile.blockTotal tile
  refine Finset.sum_congr rfl fun r _ => Finset.sum_congr rfl fun b _ => ?_
  rw [probs_apply m c t r b, classes_apply m c t r]

end Cert.KernelIdeal.Blocks

end
-- ==== Proof.FocalAccum.lean ====
/-
  The running total in the body's cell, tile by tile.

  After tile `n` the one-entry cell holds the sum of the tiles' losses from the last restart (the largest multiple of
  32 not above `n`) up to `n`: a restart stores zero and adds the tile, every other tile adds to what the tile before
  left. By induction on the tile, never by listing the 64 tiles. At the last tile of a run (`n ≡ 31` modulo 32) the
  output block repeats that sum at each of its entries.
-/
import proofs.«147133_j66949950210607_2_alg».proof.Proof.Gen.KernelIdeal.Frame
import proofs.«147133_j66949950210607_2_alg».proof.Proof.FocalSpec
import proofs.«147133_j66949950210607_2_alg».proof.Proof.FocalTile
import proofs.«147133_j66949950210607_2_alg».proof.Proof.FocalPieces
import proofs.«147133_j66949950210607_2_alg».proof.Proof.FocalBlocks

noncomputable section

open scoped BigOperators
open Idealize.ShloMosaic Idealize.ShloMosaic.TcCoe Idealize.SL.Sem
open Idealize.ShloMosaic.Pipeline (Dat)

namespace Cert.KernelIdeal.Accum

open Cert.KernelIdeal Cert.KernelIdeal.Gen Idealize.ShloMosaic.ValueIdx Cert.Focal Cert.KernelIdeal.Blocks

variable (m : (ℓ : Loc nD τ sig) → Buf (Elt Ideal) ℓ)

/-- Tile `n`'s loss, of the argument arrays; zero past the last tile. -/
def tileAt (c : Dev nD) (n : ℕ) : EReal :=
  if h : n < 64 then tile (m ((c : Thread nD τ).loc main_arg0)) (m ((c : Thread nD τ).loc main_arg1)) ⟨n, h⟩ else 0

theorem tileAt_point (c : Dev nD) (t : Fin cfg0.N) :
    tileAt m c t.val = tile (m ((c : Thread nD τ).loc main_arg0)) (m ((c : Thread nD τ).loc main_arg1)) (tileOf t) :=
  dif_pos (tileOf t).isLt

/-- The running total after tile `n`: the tiles from the last restart up to `n`. -/
def running (c : Dev nD) (n : ℕ) : EReal := ∑ k ∈ Finset.Ico (n - n % 32) (n + 1), tileAt m c k

/-- One tile's step: from a cell that holds `S`, the body leaves `S` plus the tile's loss. -/
theorem step (c : Dev nD) (t : Fin cfg0.N) (prev : Vec Ideal S1x1 .f32) (S : EReal) (hprev : ∀ j, prev j = S)
    (j : S1x1.Idx) : k0_pay3 (F := Ideal) (iblk m c 0 t) (iblk m c 1 t) prev j = S + tileAt m c t.val := by
  obtain ⟨u, v, rfl⟩ : ∃ (u v : Fin 1), j = ix2 u v := ⟨j 0, j 1, eq_ix2 j⟩
  rw [Tile.cell_apply (iblk m c 0 t) (iblk m c 1 t) prev u v, hprev, blockTotal_eq_tile m c t, tileAt_point]

/-- The cell after a run's first tile, as the payload over the reset value; -/
theorem cell_first_pay (c : Dev nD) (t : Fin cfg0.N) (h0 : t.val % 32 = 0) (h1 : ¬t.val % 32 = 31) :
    (outsAt0 m c t.val t.isLt).2 = k0_pay3 (iblk m c 0 t) (iblk m c 1 t) (k0_pay2 (F := Ideal)) := by
  rw [outsAt0_A m c t h0 h1]
  exact Pieces.cell_A c (grid0.coords t) (ms0_0 t) (hs0_0 t) (ms0_1 t) (hs0_1 t) (ms0_2 t) (hs0_2 t) scM0_0 (Memref.isWhole_whole _)
    ((hcond0_0 t).mpr h0) (fun h => h1 ((hcond0_1 t).mp h)) (iblk m c 0 t) (iblk m c 1 t)

/-- after a later tile, as the payload over what the tile before left; -/
theorem cell_later_pay (c : Dev nD) (t : Fin cfg0.N) (h0 : ¬t.val % 32 = 0) :
    (outsAt0 m c t.val t.isLt).2
      = k0_pay3 (iblk m c 0 t) (iblk m c 1 t) (outsAt0 m c (t.val - 1) (Nat.lt_of_le_of_lt (Nat.sub_le _ _) t.isLt)).2 := by
  by_cases h1 : t.val % 32 = 31
  · rw [outsAt0_C m c t h0 h1]
    exact Pieces.cell_C c (grid0.coords t) (ms0_0 t) (hs0_0 t) (ms0_1 t) (hs0_1 t) (ms0_2 t) (hs0_2 t) scM0_0 (Memref.isWhole_whole _)
      (fun h => h0 ((hcond0_0 t).mp h)) ((hcond0_1 t).mpr h1) (iblk m c 0 t) (iblk m c 1 t) _
  · rw [outsAt0_B m c t h0 h1]
    exact Pieces.cell_B c (grid0.coords t) (ms0_0 t) (hs0_0 t) (ms0_1 t) (hs0_1 t) (ms0_2 t) (hs0_2 t) scM0_0 (Memref.isWhole_whole _)
      (fun h => h0 ((hcond0_0 t).mp h)) (fun h => h1 ((hcond0_1 t).mp h)) (iblk m c 0 t) (iblk m c 1 t) _

/-- and the output block after a run's last tile: the new cell, spread. -/
theorem block_last_pay (c : Dev nD) (t : Fin cfg0.N) (h0 : ¬t.val % 32 = 0) (h1 : t.val % 32 = 31) :
    (outsAt0 m c t.val t.isLt).1
      = k0_pay1 (k0_pay3 (iblk m c 0 t) (iblk m c 1 t) (outsAt0 m c (t.val - 1) (Nat.lt_of_le_of_lt (Nat.sub_le _ _) t.isLt)).2) := by
  rw [outsAt0_C m c t h0 h1]
  exact Pieces.block_C c (grid0.coords t) (ms0_0 t) (hs0_0 t) (ms0_1 t) (hs0_1 t) (ms0_2 t) (hs0_2 t) scM0_0 (Memref.isWhole_whole _)
    (fun h => h0 ((hcond0_0 t).mp h)) ((hcond0_1 t).mpr h1) (iblk m c 0 t) (iblk m c 1 t) _

/-- THE CELL after tile `n` holds the running total. -/
theorem cell_eq (c : Dev nD) : ∀ (n : ℕ) (h : n < cfg0.N) (j : S1x1.Idx), (outsAt0 m c n h).2 j = running m c n
  | 0, h, j => by
    unfold running
    rw [Ico_restart 0 rfl, Finset.sum_singleton]
    have e := cell_first_pay m c ⟨0, h⟩ rfl (by show ¬(0 % 32 = 31); decide)
    have e' : (outsAt0 m c 0 h).2 = _ := e
    rw [e']
    exact (step m c ⟨0, h⟩ _ 0 (fun j => Tile.reset_apply j) j).trans (zero_add _)
  | n + 1, h, j => by
    unfold running
    by_cases h0 : (n + 1) % 32 = 0
    · rw [Ico_restart (n + 1) h0, Finset.sum_singleton]
      have h1 : ¬(n + 1) % 32 = 31 := by omega
      have e' : (outsAt0 m c (n + 1) h).2 = _ := cell_first_pay m c ⟨n + 1, h⟩ h0 h1
      rw [e']
      exact (step m c ⟨n + 1, h⟩ _ 0 (fun j => Tile.reset_apply j) j).trans (zero_add _)
    · rw [sum_Ico_step _ n h0]
      have e' : (outsAt0 m c (n + 1) h).2 = k0_pay3 (iblk m c 0 ⟨n + 1, h⟩) (iblk m c 1 ⟨n + 1, h⟩) (outsAt0 m c n (Nat.lt_of_succ_lt h)).2 :=
        cell_later_pay m c ⟨n + 1, h⟩ h0
      rw [e']
      exact step m c ⟨n + 1, h⟩ _ _ (fun j => cell_eq c n (Nat.lt_of_succ_lt h) j) j

/-- THE OUTPUT BLOCK after a run's last tile repeats the running total. -/
theorem block_eq (c : Dev nD) (t : Fin cfg0.N) (h1 : t.val % 32 = 31) (a : Fin 8) (b : Fin 128) :
    ((outsAt0 m c t.val t.isLt).1 : Vec Ideal S8x128 .f32) (ix2 a b) = running m c t.val := by
  have h0 : ¬t.val % 32 = 0 := by omega
  rw [block_last_pay m c t h0 h1]
  refine (Tile.spread_apply _ a b).trans ?_
  rw [← cell_later_pay m c t h0]
  exact cell_eq m c t.val t.isLt _

end Cert.KernelIdeal.Accum

end
-- ==== Proof.FocalKernelValue.lean ====
/-
  What the kernel program returns.

  The region's output array has two 8 × 128 blocks, one per run of 32 tiles; block `q` is written back once, after the
  run's last tile `32·q + 31`, and then holds that run's total at every entry. After the region the program adds entry
  `(0, 0)` (the first run) and entry `(8, 0)` (the second) and divides by 32768: the two runs together are all 64
  tiles, so the result is the mean loss.
-/
import proofs.«147133_j66949950210607_2_alg».proof.Proof.Gen.KernelIdeal.Frame
import proofs.«147133_j66949950210607_2_alg».proof.Proof.FocalSpec
import proofs.«147133_j66949950210607_2_alg».proof.Proof.FocalAccum
import Idealize.ShloMosaic.Lib.Pipeline.Value
import Idealize.ShloMosaic.Lib.StableHlo.Run
import Idealize.ShloMosaic.Lib.Tactic

noncomputable section

open scoped BigOperators
open Idealize.ShloMosaic Idealize.ShloMosaic.TcCoe Idealize.SL.Sem
open Idealize.ShloMosaic.Pipeline (Dat)

namespace Cert.KernelIdeal.Result

open Cert.KernelIdeal Cert.KernelIdeal.Gen Idealize.ShloMosaic.ValueIdx Cert.Focal Cert.KernelIdeal.Accum

variable (m : (ℓ : Loc nD τ sig) → Buf (Elt Ideal) ℓ) (ρ : Dev nD → PrngReg)

/-- The output window's block index at point `t` is `(t / 32, 0)`. -/
theorem index_out : ∀ t : Fin cfg0.N, win0_2.index t (0 : Fin 2) = t.val / 32 ∧ win0_2.index t (1 : Fin 2) = 0 :=
  (by decide +kernel : ∀ t : Fin grid0.N, win0_2.index t (0 : Fin 2) = t.val / 32 ∧ win0_2.index t (1 : Fin 2) = 0)

/-- The output array after the region: at row `i₀`, the total of run `i₀ / 8`. -/
def outArr (c : Dev nD) : S16x128.Idx → EReal := fun i => running m c (32 * ((i 0).val / 8) + 31)

/-- What a run's last tile writes back is its block of `outArr`. -/
theorem flushed_eq (c : Dev nD) (t : Fin cfg0.N) (hf : (cfg0.win 2).flush t = true) :
    (dats m 0 c).flushed 2 t = ((cfg0.win 2).blk t).view.read (Elt Ideal) (outArr m c) := by
  have h1 : t.val % 32 = 31 := (flush0_2 t).mp hf
  have hi := index_out t
  show (cfg0.win 2).cut (grid0.coords t) ((dats m 0 c).after 2 t) = _
  rw [after0_2]
  funext j
  show ((outsAt0 m c t.val t.isLt).1 : Vec Ideal S8x128 .f32) j = outArr m c (((cfg0.win 2).blk t).view.emb j)
  obtain ⟨a, b, rfl⟩ : ∃ (a : Fin 8) (b : Fin 128), j = ix2 a b := ⟨j 0, j 1, eq_ix2 j⟩
  rw [block_eq m c t h1 a b]
  unfold outArr
  refine congrArg (running m c) ?_
  show t.val = 32 * ((win0_2.index t (0 : Fin 2) * 8 + 1 * a.val) / 8) + 31
  have ha : a.val < 8 := a.isLt
  rw [hi.1]
  omega

/-- An index of the output array is in point `t`'s block iff each coordinate is in the block's range on its axis. -/
theorem mem_blk_out (t : Fin cfg0.N) (i : S16x128.Idx) :
    i ∈ ((cfg0.win 2).blk t).view.set ↔ ∀ a : Fin 2, win0_2.index t a * S8x128.size a ≤ (i a).val ∧ (i a).val < win0_2.index t a * S8x128.size a + S8x128.size a := by
  show i ∈ ((View.whole main_v1).slice (win0_2.rect t)).set ↔ _
  rw [View.set_slice_whole, Rect.mem_set_unit]
  exact Iff.rfl

/-- The two blocks cover the output array, so after the region it is `outArr`. -/
theorem final_out (c : Dev nD) : (dats m 0 c).arrAt 2 cfg0.N = outArr m c :=
  (dats m 0 c).arrAt_eq_of_cover 2 (outArr m c) (flushed_eq m c) fun i => by
    have hi0 : (i 0).val < 16 := (i 0).isLt
    have hi1 : (i 1).val < 128 := (i 1).isLt
    have hN : cfg0.N = 64 := N_0
    have ht : 32 * ((i 0).val / 8) + 31 < cfg0.N := by rw [hN]; omega
    have hx := index_out ⟨32 * ((i 0).val / 8) + 31, ht⟩
    refine ⟨⟨32 * ((i 0).val / 8) + 31, ht⟩, (flush0_2 _).mpr (by show (32 * ((i 0).val / 8) + 31) % 32 = 31; omega), ?_⟩
    rw [mem_blk_out]
    intro a
    match a with
    | ⟨0, _⟩ =>
      show win0_2.index ⟨32 * ((i 0).val / 8) + 31, ht⟩ (0 : Fin 2) * 8 ≤ (i 0).val ∧ (i 0).val < win0_2.index ⟨32 * ((i 0).val / 8) + 31, ht⟩ (0 : Fin 2) * 8 + 8
      rw [hx.1]
      show (32 * ((i 0).val / 8) + 31) / 32 * 8 ≤ (i 0).val ∧ (i 0).val < (32 * ((i 0).val / 8) + 31) / 32 * 8 + 8
      omega
    | ⟨1, _⟩ =>
      show win0_2.index ⟨32 * ((i 0).val / 8) + 31, ht⟩ (1 : Fin 2) * 128 ≤ (i 1).val ∧ (i 1).val < win0_2.index ⟨32 * ((i 0).val / 8) + 31, ht⟩ (1 : Fin 2) * 128 + 128
      rw [hx.2]
      omega

/-- The one entry of a 1 × 1 slice of a 16 × 128 array, taken as a scalar, is the array's entry at the slice's offsets. -/
theorem scalar_of_slice (x : S16x128.Idx → EReal) (off : Fin 2 → ℕ) (hs : S16x128.Slices off S1x1) (j : S_.Idx)
    (k : S16x128.Idx) (hk : ∀ a, (k a).val = off a) :
    shapeCast S_ (extractStridedSlice S1x1 off x hs) shapeCasts_S1x1_S_ j = x k := by
  have hq : ∀ (q : S1x1.Idx) (b : Fin 2), (q b).val = 0 := fun q b => by
    match b with
    | ⟨0, _⟩ => exact Nat.lt_one_iff.mp (q _).isLt
    | ⟨1, _⟩ => exact Nat.lt_one_iff.mp (q _).isLt
  unfold shapeCast
  refine extractStridedSlice_apply off x hs _ k fun a => ?_
  rw [hk a, hq]
  rfl

/-- The two runs' totals together are the total loss. -/
theorem runs_total (c : Dev nD) :
    running m c 31 + running m c 63 = total (m ((c : Thread nD τ).loc main_arg0)) (m ((c : Thread nD τ).loc main_arg1)) := by
  unfold running
  rw [two_runs (tileAt m c), total_eq_tiles]
  exact Finset.sum_congr rfl fun k _ => dif_pos k.isLt

/-- The program's result after the region's tail: the mean loss. -/
theorem tail_eq (c : Dev nD) :
    Pipeline.afterTail₀ cfgs (dats m) 0 (V0 m) [hostOps1] c main_v7
      = fun _ => mean (m ((c : Thread nD τ).loc main_arg0)) (m ((c : Thread nD τ).loc main_arg1)) := by
  unfold Pipeline.afterTail₀
  show StableHlo.after hostOps1 _ (Proc.devRef .tc main_v7) = _
  after_results
  have hw : Pipeline.withArrays (cfgs 0).spec c (V0 m c) (fun w => (dats m 0 c).arrAt w (cfgs 0).N) (Proc.devRef .tc main_v1)
      = outArr m c := (Pipeline.withArrays_arr spec0 launch0.win.arr_inj c _ _ 2).trans (final_out m c)
  rw [hw]
  funext j
  show Ideal.div (shapeCast S_ (extractStridedSlice S1x1 ![0, 0] (outArr m c) slices_S16x128_S1x1_0_0) shapeCasts_S1x1_S_ j
      + shapeCast S_ (extractStridedSlice S1x1 ![8, 0] (outArr m c) slices_S16x128_S1x1_8_0) shapeCasts_S1x1_S_ j)
      (Ideal.ofBits .f32 0x47000000#32) = mean _ _
  rw [scalar_of_slice (outArr m c) ![0, 0] _ j (ix2 (0 : Fin 16) (0 : Fin 128)) (fun a => by match a with | ⟨0, _⟩ => rfl | ⟨1, _⟩ => rfl),
    scalar_of_slice (outArr m c) ![8, 0] _ j (ix2 (8 : Fin 16) (0 : Fin 128)) (fun a => by match a with | ⟨0, _⟩ => rfl | ⟨1, _⟩ => rfl)]
  show Ideal.div (running m c 31 + running m c 63) _ = _
  rw [runs_total]
  rfl

/-- THE KERNEL PROGRAM'S RUN: every weakly fair execution ends with the result at the mean loss of the argument
    arrays, and the arguments unchanged. -/
theorem run : θ_run defs (onTc (τ := τ) (main (F := Ideal))) ⟨m, fun _ => 0, ρ⟩ fun r => ∀ c : Dev nD,
      r.2.mem ((c.tc : Thread nD τ).loc main_v7)
        = (fun _ => mean (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v7 (Pipeline.mem_restRefs_of main_v7 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.Result

end
-- ==== Proof.lean ====
/-
  The focal-loss kernel against its reference, over the extended reals.

  Both programs compute the mean over 32768 rows of the total focal loss of a 32768 × 2048 array of probabilities
  against one class per row: an entry `p` of the row's class column contributes `-1/4 · (1 - p)² · log p`, every other
  entry `-3/4 · p² · log (1 - p)`.

  The reference forms every entry's loss (the squares as powers with exponent two), sums them all from zero and divides
  by 32768. The kernel walks 64 tiles of 512 rows in two runs of 32: at each tile it forms the entries' losses (the
  squares as products), sums a row's lanes, then the tile's 512 row sums, and adds the tile's total to a one-entry
  running total that it resets at the first tile of each run; after a run's last tile it writes the run's total to the
  run's output block. The program then adds the two runs' totals and divides by 32768.

  The two results are equal because (1) at a REAL probability a power with exponent two is a product — this is where the
  precondition, every probability finite, is used: at `-∞` the two differ —; (2) the patch both programs apply to entries
  that differ from themselves changes nothing, since no extended real differs from itself; (3) addition of extended
  reals is commutative and associative, so the sum over all entries is the sum over the tiles of the tiles' sums, in any
  grouping.

  The three frames are the generated frame certificates of the two kernel programs and the reference's generated run;
  the idealization rewrote nothing, so `preserves` is `True`.
-/
import proofs.«147133_j66949950210607_2_alg».proof.Defs
import proofs.«147133_j66949950210607_2_alg».proof.Proof.Gen.Kernel
import proofs.«147133_j66949950210607_2_alg».proof.Proof.Gen.Kernel.Skeleton
import proofs.«147133_j66949950210607_2_alg».proof.Proof.Gen.Kernel.Launch
import proofs.«147133_j66949950210607_2_alg».proof.Proof.Gen.Kernel.Points
import proofs.«147133_j66949950210607_2_alg».proof.Proof.Gen.Kernel.Frame
import proofs.«147133_j66949950210607_2_alg».proof.Proof.Gen.KernelIdeal
import proofs.«147133_j66949950210607_2_alg».proof.Proof.Gen.KernelIdeal.Skeleton
import proofs.«147133_j66949950210607_2_alg».proof.Proof.Gen.KernelIdeal.Launch
import proofs.«147133_j66949950210607_2_alg».proof.Proof.Gen.KernelIdeal.Points
import proofs.«147133_j66949950210607_2_alg».proof.Proof.Gen.KernelIdeal.Frame
import proofs.«147133_j66949950210607_2_alg».proof.Proof.Gen.ReferenceIdeal
import proofs.«147133_j66949950210607_2_alg».proof.Proof.Gen.Pre_finite_inputs
import proofs.«147133_j66949950210607_2_alg».proof.Proof.Gen.ReferenceIdeal.Run
import proofs.«147133_j66949950210607_2_alg».proof.Proof.Gen.ReferenceIdeal.Read
import proofs.«147133_j66949950210607_2_alg».proof.Proof.FocalFinite
import proofs.«147133_j66949950210607_2_alg».proof.Proof.FocalReference
import proofs.«147133_j66949950210607_2_alg».proof.Proof.FocalKernelValue
import Idealize.ShloMosaic.Adequacy
import Idealize.ShloMosaic.Init

noncomputable section

namespace Cert.Proof

open Idealize.ShloMosaic Idealize.ShloMosaic.TcCoe Idealize.SL.Sem

theorem frame_kernel : Cert.frame_Kernel (hKernel := Cert.Kernel.Gen.facts) (hPre_finite_inputs := Cert.Pre_finite_inputs.Gen.facts) :=
  fun m ρ _ => Cert.Kernel.Gen.frame m ρ

theorem frame_kernelIdeal :
    Cert.frame_KernelIdeal (hKernelIdeal := Cert.KernelIdeal.Gen.facts) (hPre_finite_inputs := Cert.Pre_finite_inputs.Gen.facts) :=
  fun m ρ _ => Cert.KernelIdeal.Gen.frame m ρ

theorem frame_referenceIdeal :
    Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end at the mean loss of the argument arrays: the kernel's by its running totals, the reference's by
    its one sum, at probabilities the precondition makes real. -/
theorem algebraic :
    Cert.algebraic_KernelIdeal_ReferenceIdeal (hKernelIdeal := Cert.KernelIdeal.Gen.facts)
      (hReferenceIdeal := Cert.ReferenceIdeal.Gen.facts) (hPre_finite_inputs := Cert.Pre_finite_inputs.Gen.facts) := by
  intro m ρ m' ρ' hpre hagree
  refine ⟨fun c => fun _ => Cert.Focal.mean (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v21_eq _ _).trans
    (Cert.ReferenceIdeal.Mean.result_eq _ _ fun i => Cert.Focal.real_of_pre _ _ (hpre c) i)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
